-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S50000x128 .f32) (main_arg1 : IVec S800000 32) (main_arg2 : IVec S800000 32) (main_arg3 : FVec F S800000 .f32) (main_arg4 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S50000x128 : Shape := ⟨2, ![50000, 128]⟩
abbrev S800000 : Shape := ⟨1, ![800000]⟩
abbrev S128x128 : Shape := ⟨2, ![128, 128]⟩
abbrev S800000x1 : Shape := ⟨2, ![800000, 1]⟩
abbrev S_ : Shape := ⟨0, ![]⟩
abbrev S800000x128 : Shape := ⟨2, ![800000, 128]⟩
abbrev S5000x128 : Shape := ⟨2, ![5000, 128]⟩

abbrev nBuf : Space → Nat
  | .hbm => 38
  | .vmem => 7
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S800000x1, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S800000x128, .f32⟩
  | .hbm, ⟨16, _⟩ => ⟨S800000x128, .f32⟩
  | .hbm, ⟨17, _⟩ => ⟨S_, .f32⟩
  | .hbm, ⟨18, _⟩ => ⟨S50000x128, .f32⟩
  | .hbm, ⟨19, _⟩ => ⟨S800000x1, .i32⟩
  | .hbm, ⟨20, _⟩ => ⟨S50000x128, .f32⟩
  | .hbm, ⟨21, _⟩ => ⟨S800000x1, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S800000x128, .f32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v25) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S800000x1 : Shape := ⟨2, ![800000, 1]⟩
abbrev S_ : Shape := ⟨0, ![]⟩
abbrev S800000x128 : Shape := ⟨2, ![800000, 128]⟩

abbrev nBuf : Space → Nat
  | .hbm => 45
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S800000x1, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S800000x128, .f32⟩
  | .hbm, ⟨16, _⟩ => ⟨S800000x128, .f32⟩
  | .hbm, ⟨17, _⟩ => ⟨S_, .f32⟩
  | .hbm, ⟨18, _⟩ => ⟨S50000x128, .f32⟩
  | .hbm, ⟨19, _⟩ => ⟨S800000x1, .i32⟩
  | .hbm, ⟨20, _⟩ => ⟨S50000x128, .f32⟩
  | .hbm, ⟨21, _⟩ => ⟨S800000x1, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S800000x128, .f32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S_, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.CombineSpec.lean ====
/-
  The value both programs compute, as one function of three arrays.

  A graph convolution's middle layer: with `h` the two-hop aggregate `A·(A·X)` of the node features `X`
  (an array of 50000 rows of 128 entries) and `W` a 128 × 128 weight, the layer returns `(½·h − ½·X)·W`.
  Entry `(p, q)` of that product is the sum over the 128 feature positions `k` of
  `(½·h[p,k] − ½·X[p,k]) · W[k,q]`: it depends on ROW `p` of `h` and of `X` only, and on column `q` of `W`.
  That row-locality is all the tiling of the rows uses, so the entry is stated once, for any number of rows:
  at 5000 rows it is what one tile computes, at 50000 rows it is the whole layer.

  Over the extended reals nothing more is needed: both programs form the same products, the same difference
  and the same 128-term sum in the same order, so no law of arithmetic (and no finiteness) enters.
-/
import Idealize.ShloMosaic.PureOps.Ideal
import Idealize.ShloMosaic.Lib.ValueIdx

noncomputable section

namespace Cert.Combine

open Idealize.ShloMosaic Idealize.ShloMosaic.ValueIdx
open scoped BigOperators

/-- The factor one half, as the binary word both programs spell it with (never evaluated: the same word on both sides). -/
def half : EReal := Ideal.ofBits .f32 0x3F000000#32

/-- Entry `(p, q)` of `(½·h − ½·f)·w` for arrays of `R` rows: the sum over the feature position `k` of
    `(½·h[p,k] − ½·f[p,k]) · w[k,q]`. -/
def cell (R : Nat) (h f : (⟨2, ![R, 128]⟩ : Shape).Idx → EReal) (w : (⟨2, ![128, 128]⟩ : Shape).Idx → EReal)
    (p : Fin R) (q : Fin 128) : EReal :=
  ∑ k : Fin 128, (half * h (ix2 p k) - half * f (ix2 p k)) * w (ix2 k q)

/-- The whole layer on 50000 nodes: the array whose entry at `i = (p, q)` is `cell` of row `p` and column `q`. -/
def project (h f : (⟨2, ![50000, 128]⟩ : Shape).Idx → EReal) (w : (⟨2, ![128, 128]⟩ : Shape).Idx → EReal) :
    (⟨2, ![50000, 128]⟩ : Shape).Idx → EReal :=
  fun i => cell 50000 h f w (i 0) (i 1)

/-- The layer read at explicit coordinates. -/
theorem project_ix2 (h f : (⟨2, ![50000, 128]⟩ : Shape).Idx → EReal) (w : (⟨2, ![128, 128]⟩ : Shape).Idx → EReal)
    (p : Fin 50000) (q : Fin 128) : project h f w (ix2 p q) = cell 50000 h f w p q := rfl

end Cert.Combine

end
-- ==== Proof.CombineTile.lean ====
/-
  What one tile of the kernel computes.

  The kernel walks the 50000 rows in ten tiles of 5000. On a tile it loads the tile's rows of the two-hop aggregate `h`
  and of the features `X` and the whole weight `W`, forms `½·h − ½·X` entry by entry, narrows both factors to a
  shorter float format (the identity on the ideal values) and multiplies them into an accumulator that starts at zero.
  At the ideal values the product's entry `(p, q)` is the plain sum over the feature position `k` of the left factor at
  `(p, k)` times the right factor at `(k, q)` — the zero accumulator adds nothing — so the stored tile is, entry by
  entry, the specification's `cell` at 5000 rows.
-/
import proofs.«155355_j32873679684169_1_alg».proof.Proof.Gen.KernelIdeal.Skeleton
import proofs.«155355_j32873679684169_1_alg».proof.Proof.CombineSpec
import Idealize.ShloMosaic.PureOps.Ideal.Laws
import Idealize.ShloMosaic.Lib.ValueIdx
import Idealize.ShloMosaic.Lib.Pipeline.Value

noncomputable section

namespace Cert.Combine.Tile

open Cert.KernelIdeal Cert.KernelIdeal.Gen Cert.Combine
open Idealize.ShloMosaic Idealize.ShloMosaic.ValueIdx
open scoped BigOperators

/-- The left factor's row is the output's row (a kept axis of the product), -/
theorem left_row (i : S5000x128.Idx) (κ : dot_S5000x128_S128x128_S5000x128_1_0_0_1_n_n.contr.Idx) :
    (dot_S5000x128_S128x128_S5000x128_1_0_0_1_n_n.lhsIdx i κ 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- and its column is the contracted position. -/
theorem left_col (i : S5000x128.Idx) (κ : dot_S5000x128_S128x128_S5000x128_1_0_0_1_n_n.contr.Idx) :
    (dot_S5000x128_S128x128_S5000x128_1_0_0_1_n_n.lhsIdx i κ 1).val = (κ ⟨0, by decide⟩).val :=
  dot_S5000x128_S128x128_S5000x128_1_0_0_1_n_n.lhsIdx_val_of_single rfl i κ
/-- The right factor's row is the contracted position, -/
theorem right_row (i : S5000x128.Idx) (κ : dot_S5000x128_S128x128_S5000x128_1_0_0_1_n_n.contr.Idx) :
    (dot_S5000x128_S128x128_S5000x128_1_0_0_1_n_n.rhsIdx i κ 0).val = (κ ⟨0, by decide⟩).val :=
  dot_S5000x128_S128x128_S5000x128_1_0_0_1_n_n.rhsIdx_val_of_single rfl i κ
/-- and its column is the output's column. -/
theorem right_col (i : S5000x128.Idx) (κ : dot_S5000x128_S128x128_S5000x128_1_0_0_1_n_n.contr.Idx) :
    (dot_S5000x128_S128x128_S5000x128_1_0_0_1_n_n.rhsIdx i κ 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- So for output `(p, q)` and feature position `k` the left factor is read at `(p, k)` -/
theorem left_at (p : Fin 5000) (q k : Fin 128) :
    dot_S5000x128_S128x128_S5000x128_1_0_0_1_n_n.lhsIdx (ix2 p q) ((contrEquiv1 dot_S5000x128_S128x128_S5000x128_1_0_0_1_n_n 128 rfl rfl).symm k) = ix2 p k :=
  funext fun a => Fin.ext (by
    match a with
    | ⟨0, _⟩ => exact left_row _ _
    | ⟨1, _⟩ => exact (left_col _ _).trans (contrEquiv1_symm_val dot_S5000x128_S128x128_S5000x128_1_0_0_1_n_n 128 rfl rfl k))

/-- and the right factor at `(k, q)`. -/
theorem right_at (p : Fin 5000) (q k : Fin 128) :
    dot_S5000x128_S128x128_S5000x128_1_0_0_1_n_n.rhsIdx (ix2 p q) ((contrEquiv1 dot_S5000x128_S128x128_S5000x128_1_0_0_1_n_n 128 rfl rfl).symm k) = ix2 k q :=
  funext fun a => Fin.ext (by
    match a with
    | ⟨0, _⟩ => exact (right_row _ _).trans (contrEquiv1_symm_val dot_S5000x128_S128x128_S5000x128_1_0_0_1_n_n 128 rfl rfl k)
    | ⟨1, _⟩ => exact right_col _ _)

/-- A 5000 × 128 by 128 × 128 product into the zero accumulator, at the ideal values and at explicit coordinates:
    entry `(p, q)` is the sum over `k` of `l[p,k] · r[k,q]`. -/
theorem product_at {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  rw [left_at p q k, right_at p q k]

/-- The tile the body stores, at entry `(p, q)`, is `cell` of the loaded tiles of `h` and `X` and the loaded weight. -/
theorem stored_tile_at (x0 x1 : Vec Ideal S5000x128 .f32) (x2 : Vec Ideal S128x128 .f32) (p : Fin 5000) (q : Fin 128) :
    k0_pay1 (F := Ideal) x0 x1 x2 (ix2 p q) = cell 5000 x0 x1 x2 p q := by
  unfold k0_pay1
  refine (product_at _ _ p q).trans ?_
  unfold cell
  refine Finset.sum_congr rfl fun k _ => ?_
  show (half * shapeCast S5000x128 x0 shapeCasts_S5000x128_S5000x128 (ix2 p k) - half * x1 (ix2 p k)) * x2 (ix2 k q) = _
  rw [shapeCast_self x0]

end Cert.Combine.Tile

end
-- ==== Proof.CombineRows.lean ====
/-
  From the ten tiles to the whole array.

  Tile `t` (of ten) covers rows `5000·t … 5000·t + 4999` and all 128 columns of the output, of the aggregate `h` and of the
  features `X`; the weight's one block is the whole weight at every tile. An entry of the layer depends on its own row of
  `h` and `X` only, so what tile `t` writes back — `cell` of the loaded tiles — is exactly rows `5000·t …` of the layer
  `project` of the whole arrays. Every row `r` lies in tile `r / 5000`, so the tiles cover the output and the array ends
  holding `project` everywhere.
-/
import proofs.«155355_j32873679684169_1_alg».proof.Proof.Gen.KernelIdeal.Value
import proofs.«155355_j32873679684169_1_alg».proof.Proof.CombineTile

noncomputable section

namespace Cert.Combine.Rows

open Cert.KernelIdeal Cert.KernelIdeal.Gen Cert.Combine
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- The body's loads and its store start at the corner of their buffers. -/
theorem corner : (![0, 0] : Fin 2 → Nat) = fun _ => 0 := funext fun a => by fin_cases a <;> rfl

/-- Where each window's block sits at tile `t`, decided over the ten tiles: the aggregate's, the features' and the
    output's blocks are block-row `t`, block-column 0; the weight's block is always the one at the origin. -/
theorem tile_position : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- There are ten tiles. -/
theorem tile_lt (t : Fin cfg0.N) : t.val < 10 := lt_of_lt_of_eq t.isLt N_0

/-- Tile `t` of the layer, for any three arrays: what the body stores from the arrays' blocks at `t`, read through the
    output window's block shape, is block `t` of the layer `project` of the whole arrays. -/
theorem tile_of_arrays (Ah Af : (⟨S50000x128, .f32⟩ : BufTy).Contents (Elt Ideal)) (Aw : (⟨S128x128, .f32⟩ : BufTy).Contents (Elt Ideal))
    (t : Fin cfg0.N) :
    (cfg0.win 3).cut (grid0.coords t)
        (k0_pay1 (F := Ideal) (((cfg0.win 0).blk t).view.read (Elt Ideal) Ah) (((cfg0.win 1).blk t).view.read (Elt Ideal) Af)
          (((cfg0.win 2).blk t).view.read (Elt Ideal) Aw))
      = ((cfg0.win 3).blk t).view.read (Elt Ideal) (project Ah Af Aw) := by
  obtain ⟨e00, e01, e10, e11, e20, e21, e30, e31⟩ := tile_position t
  have ht := tile_lt t
  funext j
  obtain ⟨p, q, rfl⟩ : ∃ (p : Fin 5000) (q : Fin 128), j = ix2 p q := ⟨j 0, j 1, eq_ix2 j⟩
  have hp : p.val < 5000 := p.isLt
  have hrow : t.val * 5000 + p.val < 50000 := by omega
  show k0_pay1 (F := Ideal) (((cfg0.win 0).blk t).view.read (Elt Ideal) Ah) (((cfg0.win 1).blk t).view.read (Elt Ideal) Af)
      (((cfg0.win 2).blk t).view.read (Elt Ideal) Aw) (ix2 p q)
    = project Ah Af Aw (((cfg0.win 3).blk t).view.emb (ix2 p q))
  refine (Tile.stored_tile_at (((cfg0.win 0).blk t).view.read (Elt Ideal) Ah) (((cfg0.win 1).blk t).view.read (Elt Ideal) Af)
    (((cfg0.win 2).blk t).view.read (Elt Ideal) Aw) p q).trans ?_
  have h3 : ((cfg0.win 3).blk t).view.emb (ix2 p q) = ix2 (n0 := 50000) (n1 := 128) ⟨t.val * 5000 + p.val, hrow⟩ q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  rw [h3, project_ix2]
  unfold cell
  refine Finset.sum_congr rfl fun k _ => ?_
  have h0 : ((cfg0.win 0).blk t).view.emb (ix2 p k) = ix2 (n0 := 50000) (n1 := 128) ⟨t.val * 5000 + p.val, hrow⟩ k := by
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have h1 : ((cfg0.win 1).blk t).view.emb (ix2 p k) = ix2 (n0 := 50000) (n1 := 128) ⟨t.val * 5000 + p.val, hrow⟩ k := by
    funext a; apply Fin.ext
    match a with
    | ⟨0, _⟩ => show win0_1.index t (0 : Fin 2) * 5000 + 1 * p.val = t.val * 5000 + p.val; omega
    | ⟨1, _⟩ => show win0_1.index t (1 : Fin 2) * 128 + 1 * k.val = k.val; omega
  have h2 : ((cfg0.win 2).blk t).view.emb (ix2 k q) = ix2 (n0 := 128) (n1 := 128) k q := by
    funext a; apply Fin.ext
    match a with
    | ⟨0, _⟩ => show win0_2.index t (0 : Fin 2) * 128 + 1 * k.val = k.val; omega
    | ⟨1, _⟩ => show win0_2.index t (1 : Fin 2) * 128 + 1 * q.val = q.val; omega
  show (half * Ah (((cfg0.win 0).blk t).view.emb (ix2 p k)) - half * Af (((cfg0.win 1).blk t).view.emb (ix2 p k)))
      * Aw (((cfg0.win 2).blk t).view.emb (ix2 k q)) = _
  rw [h0, h1, h2]

/-- WHAT TILE `t` WRITES BACK is block `t` of the layer `project` of the three staged arrays as the tiled stage finds
    them (the arrays enter only as wholes: the tile equation above holds for any three arrays). -/
theorem flushed_tile (c : Dev nD) (t : Fin cfg0.N) :
    (dats m 0 c).flushed 3 t = ((cfg0.win 3).blk t).view.read (Elt Ideal)
      (project (V m c (Pipeline.arrRef spec0 0)) (V m c (Pipeline.arrRef spec0 1)) (V m c (Pipeline.arrRef spec0 2))) := by
  rw [Cert.KernelIdeal.Value.flushed3]
  unfold out0_3
  rw [View.canon_unit_zero corner]
  simp only [View.ld_unit_zero (S := S5000x128) corner, View.ld_unit_zero (S := S128x128) corner]
  unfold iblk
  generalize V m c (Pipeline.arrRef spec0 0) = Ah
  generalize V m c (Pipeline.arrRef spec0 1) = Af
  generalize V m c (Pipeline.arrRef spec0 2) = Aw
  exact tile_of_arrays Ah Af Aw t

/-- An index of the output lies in tile `t`'s block iff each coordinate lies in the block's range on its axis. -/
theorem mem_tile (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v26).slice (win0_3.rect t)).set ↔ _
  rw [View.set_slice_whole, Rect.mem_set_unit]
  exact Iff.rfl

/-- Every index of the output lies in some tile's block: row `r` in tile `r / 5000`. -/
theorem rows_covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by omega⟩, rfl⟩
  obtain ⟨-, -, -, -, -, -, e30, e31⟩ := tile_position t
  refine ⟨t, flush0_3 t, ?_⟩
  rw [mem_tile]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- THE OUTPUT ARRAY after the tiled stage is the layer `project` of the three staged arrays as the stage finds them. -/
theorem final_rows (c : Dev nD) :
    (dats m 0 c).arrAt 3 cfg0.N
      = project (V m c (Pipeline.arrRef spec0 0)) (V m c (Pipeline.arrRef spec0 1)) (V m c (Pipeline.arrRef spec0 2)) :=
  (dats m 0 c).arrAt_eq_of_cover 3
    (project (V m c (Pipeline.arrRef spec0 0)) (V m c (Pipeline.arrRef spec0 1)) (V m c (Pipeline.arrRef spec0 2)))
    (fun t _ => flushed_tile m c t) rows_covered

end Cert.Combine.Rows

end
-- ==== Proof.TwoHop.lean ====
/-
  The two-hop aggregate the kernel's program hands to its tiles.

  Before the tiled stage the kernel's program computes `h = A·(A·X)` on the host: twice, gather the rows of the current
  array named by the edges' column indices, scale each by its edge value, and add it into the row named by the edge's row
  index. The reference computes `h` by the very same operations, so `h` is never opened here: the array the first
  window stages is shown to be the reference's own term for `h`, of the same launch arguments. Whatever the gathers and
  scatter-adds do with out-of-range indices, they do it alike on both sides.
-/
import proofs.«155355_j32873679684169_1_alg».proof.Proof.Gen.KernelIdeal.Frame
import proofs.«155355_j32873679684169_1_alg».proof.Proof.Gen.ReferenceIdeal.Read
import Idealize.ShloMosaic.Lib.StableHlo.Run

noncomputable section

namespace Cert.Combine.TwoHop

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxRecDepth 8192 in
set_option maxHeartbeats 2000000 in
/-- When the tiled stage is entered, the array its first window stages holds the two-hop aggregate of the launch
    arguments: features, edge rows, edge columns and edge values. -/
theorem staged_aggregate (c : Dev nD) :
    (V m c main_v25 : S50000x128.Idx → EReal)
      = Cert.ReferenceIdeal.Read.val_main_v25 (F := Ideal) (m ((c : Thread nD τ).loc main_arg0))
          (m ((c : Thread nD τ).loc main_arg1)) (m ((c : Thread nD τ).loc main_arg2)) (m ((c : Thread nD τ).loc main_arg3)) := by
  dsimp only [V, hostOps0]
  after_results_simp
  rfl

end Cert.Combine.TwoHop

end
-- ==== Proof.KernelLayer.lean ====
/-
  The kernel's program, end to end, as one function of its launch arguments.

  The tiled stage leaves the output array at the layer `project` of three arrays as it finds them: the two-hop aggregate
  `h` that the host operations before it computed, the features and the weight. The features and the weight are launch
  arguments no host operation writes; `h` is the reference's own term for the aggregate of the launch arguments. So every
  execution ends with the output at `project h X W` of the launch arguments, and with the arguments unchanged.
-/
import proofs.«155355_j32873679684169_1_alg».proof.Proof.CombineRows
import proofs.«155355_j32873679684169_1_alg».proof.Proof.TwoHop

noncomputable section

namespace Cert.Combine.Kernel

open Cert.KernelIdeal Cert.KernelIdeal.Gen Cert.Combine
open Idealize.ShloMosaic Idealize.ShloMosaic.TcCoe Idealize.SL.Sem

variable (m : (ℓ : Loc nD τ sig) → Buf (Elt Ideal) ℓ) (ρ : Dev nD → PrngReg)

/-- The output array after the tiled stage, as a function of the launch arguments. -/
theorem layer (c : Dev nD) :
    (dats m 0 c).arrAt 3 cfg0.N
      = project (Cert.ReferenceIdeal.Read.val_main_v25 (F := Ideal) (m ((c : Thread nD τ).loc main_arg0))
          (m ((c : Thread nD τ).loc main_arg1)) (m ((c : Thread nD τ).loc main_arg2)) (m ((c : Thread nD τ).loc main_arg3)))
        (m ((c : Thread nD τ).loc main_arg0)) (m ((c : Thread nD τ).loc main_arg4)) :=
  (Rows.final_rows m c).trans
    (congr (congr (congrArg project (TwoHop.staged_aggregate m c)) (V_main_arg0 m c)) (V_main_arg4 m c))

/-- Every weakly fair execution of the kernel's program terminates with its result at the layer of the launch
    arguments and the arguments unchanged. -/
theorem run : θ_run defs (onTc (τ := τ) (main (F := Ideal))) ⟨m, fun _ => 0, ρ⟩ fun r => ∀ c : Dev nD,
      r.2.mem ((c : Thread nD τ).loc main_v26)
        = project (Cert.ReferenceIdeal.Read.val_main_v25 (F := Ideal) (m ((c : Thread nD τ).loc main_arg0))
            (m ((c : Thread nD τ).loc main_arg1)) (m ((c : Thread nD τ).loc main_arg2)) (m ((c : Thread nD τ).loc main_arg3)))
          (m ((c : Thread nD τ).loc main_arg0)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (layer m c), (h c).2⟩)
    (Cert.KernelIdeal.Value.run_blocks m ρ)

end Cert.Combine.Kernel

end
-- ==== Proof.ReferenceProject.lean ====
/-
  The reference's last five operations, read at an index.

  After the two sparse products the reference holds the two-hop aggregate `h`; it then forms `½·h`, `½·X`, their
  difference, and one matrix product with `W` over all 50000 rows at once. At the ideal values that product's entry
  `(p, q)` is the sum over `k` of the left operand at `(p, k)` times `W` at `(k, q)`, and the left operand is a pointwise
  expression of `h` and `X`: entry by entry this is the specification's `cell`. The aggregate `h` itself — the two
  gathers and scatter-adds — is carried as one unopened array: the kernel's program computes it by the same operations.
-/
import proofs.«155355_j32873679684169_1_alg».proof.Proof.Gen.ReferenceIdeal.Read
import proofs.«155355_j32873679684169_1_alg».proof.Proof.CombineSpec

noncomputable section

namespace Cert.Combine.Reference

open Cert.ReferenceIdeal Cert.ReferenceIdeal.Read Cert.Combine
open Idealize.ShloMosaic Idealize.ShloMosaic.ValueIdx
open scoped BigOperators

/-- The left operand of the product at output index `i` and feature position `k` sits at row `i 0`, column `k`. -/
theorem left_index (i : S50000x128.Idx) (k : Fin 128) :
    lidx_main_v31 i k = ix2 (n0 := 50000) (n1 := 128) (i 0) k :=
  funext fun a => by match a with | ⟨0, _⟩ => rfl | ⟨1, _⟩ => rfl

/-- The weight at output index `i` and feature position `k` sits at row `k`, column `i 1`. -/
theorem right_index (i : S50000x128.Idx) (k : Fin 128) :
    ridx_main_v31 i k = ix2 (n0 := 128) (n1 := 128) k (i 1) :=
  funext fun a => by match a with | ⟨0, _⟩ => rfl | ⟨1, _⟩ => rfl

/-- The reference's result is the layer `project` of its own two-hop aggregate, the features and the weight. -/
theorem result_is_project (x0 : (⟨S50000x128, .f32⟩ : BufTy).Contents (Elt Ideal))
    (x1 x2 : (⟨S800000, .i32⟩ : BufTy).Contents (Elt Ideal)) (x3 : (⟨S800000, .f32⟩ : BufTy).Contents (Elt Ideal))
    (x4 : (⟨S128x128, .f32⟩ : BufTy).Contents (Elt Ideal)) :
    val_main_v31 (F := Ideal) x0 x1 x2 x3 x4 = project (val_main_v25 (F := Ideal) x0 x1 x2 x3) x0 x4 := by
  funext i
  rw [val_main_v31_apply]
  show _ = cell 50000 (val_main_v25 (F := Ideal) x0 x1 x2 x3) x0 x4 (i 0) (i 1)
  unfold cell
  refine Finset.sum_congr rfl fun k _ => ?_
  rw [left_index i k, right_index i k, val_main_v30_apply, val_main_v27_apply, val_main_v29_apply, val_main_v26_apply,
    val_main_v28_apply, val_main_cst_4_apply, val_main_cst_5_apply]
  rfl

end Cert.Combine.Reference

end
-- ==== Proof.lean ====
/-
  A graph convolution's middle layer, `(½·A·(A·X) − ½·X)·W`, computed two ways over the extended reals.

  Both programs first form the two-hop aggregate `h = A·(A·X)` on the host by the same gathers and scatter-adds over the
  800000 edges. The reference then forms `½·h − ½·X` and multiplies by `W` over all 50000 rows at once. The kernel walks
  the rows in ten tiles of 5000: on each it forms `½·h − ½·X` for the tile's rows, narrows both factors of the product
  to a shorter float format and multiplies into an accumulator that starts at zero.

  At the ideal values a change of float format is the identity and a product into the zero accumulator is the plain sum,
  so a tile's entry `(p, q)` is the sum over the 128 feature positions `k` of `(½·h[p,k] − ½·X[p,k])·W[k,q]` — the same
  expression, term for term and in the same order, as the reference's entry for that row and column
  (Proof/CombineSpec.lean states it once; Proof/CombineTile.lean reads the kernel's tile, Proof/ReferenceProject.lean the
  reference's product). An entry depends on its own row of `h` and `X` only, the ten tiles cover the rows
  (Proof/CombineRows.lean), and the aggregate `h` is one shared, unopened term on both sides (Proof/TwoHop.lean). No law
  of arithmetic is used, so the finiteness of the inputs is never needed. The kernel read at the ideal values is the
  kernel's own text, operation for operation, so the claim relating the two readings asks nothing.
-/
import proofs.«155355_j32873679684169_1_alg».proof.Defs
import proofs.«155355_j32873679684169_1_alg».proof.Proof.Gen.Kernel
import proofs.«155355_j32873679684169_1_alg».proof.Proof.Gen.Kernel.Frame
import proofs.«155355_j32873679684169_1_alg».proof.Proof.Gen.KernelIdeal
import proofs.«155355_j32873679684169_1_alg».proof.Proof.Gen.KernelIdeal.Frame
import proofs.«155355_j32873679684169_1_alg».proof.Proof.Gen.KernelIdeal.Value
import proofs.«155355_j32873679684169_1_alg».proof.Proof.Gen.ReferenceIdeal
import proofs.«155355_j32873679684169_1_alg».proof.Proof.Gen.ReferenceIdeal.Run
import proofs.«155355_j32873679684169_1_alg».proof.Proof.Gen.ReferenceIdeal.Read
import proofs.«155355_j32873679684169_1_alg».proof.Proof.Gen.Pre_finite_inputs
import proofs.«155355_j32873679684169_1_alg».proof.Proof.KernelLayer
import proofs.«155355_j32873679684169_1_alg».proof.Proof.ReferenceProject

noncomputable section

namespace Cert.Proof

open Idealize.ShloMosaic Idealize.ShloMosaic.TcCoe Idealize.SL.Sem

/-- The kernel's program as printed runs to the end without a fault and leaves its arguments as they were. -/
theorem frame_kernel : Cert.frame_Kernel := fun m ρ _ => Cert.Kernel.Gen.frame m ρ

/-- So does the same program read at the ideal values. -/
theorem frame_kernel_ideal : Cert.frame_KernelIdeal := fun m ρ _ => Cert.KernelIdeal.Gen.frame m ρ

/-- The reference has no tiled stage: its run, with the result forgotten, is its frame. -/
theorem frame_reference : Cert.frame_ReferenceIdeal := fun m ρ _ =>
  (θ_run Cert.ReferenceIdeal.defs _ _).mono (fun _ h c => (h c).2) (Cert.ReferenceIdeal.Value.run (F := Ideal) m ρ)

/-- The kernel's ideal reading replaces no operation of the kernel: there is nothing to relate. -/
theorem preserves : Cert.preserves_Kernel_KernelIdeal := trivial

/-- From memories that agree on the five arguments both programs end with the layer `project` of the shared two-hop
    aggregate, the features and the weight: the kernel by its tiles, the reference by its one product. -/
theorem algebraic : Cert.algebraic_KernelIdeal_ReferenceIdeal := by
  intro m ρ m' ρ' _ hagree
  refine ⟨_, Cert.Combine.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.Combine.Reference.result_is_project,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
